-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4x2048x2048 : Shape := ⟨3, ![4, 2048, 2048]⟩
abbrev S4x2048 : Shape := ⟨2, ![4, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg4 : FVec F S4x2048x2048 .f32) (main_arg5 : FVec F S4x2048 .f32) (main_arg6 : FVec F S4x2048 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S4x2048x2048 .f32 := Host.absf main_arg4
  let main_cst_6 : FVec F S_ .f32 := constant S_ .f32 0x7F800000#32
  let main_v20 : FVec F S4x2048x2048 .f32 := broadcastInDim S4x2048x2048 ![] bcast_S_S4x2048x2048 main_cst_6
  let main_v21 : IVec S4x2048x2048 1 := cmpf .olt main_v19 main_v20
  let main_c_7 : IVec S_ 1 := constantI S_ 1 1#1
  let main_v22 : IVec S_ 1 := (fun x v => Host.reduce IntOp.andi x v reducesTo_S4x2048x2048_S_d0_1_2 h_S_) main_v21 main_c_7
  let main_v23 : IVec S_ 1 := andi main_v18 main_v22
  let main_v24 : FVec F S4x2048 .f32 := Host.absf main_arg5
  let main_cst_8 : FVec F S_ .f32 := constant S_ .f32 0x7F800000#32
  let main_v25 : FVec F S4x2048 .f32 := broadcastInDim S4x2048 ![] bcast_S_S4x2048 main_cst_8
  let main_v26 : IVec S4x2048 1 := cmpf .olt main_v24 main_v25
  let main_c_9 : IVec S_ 1 := constantI S_ 1 1#1
  let main_v27 : IVec S_ 1 := (fun x v => Host.reduce IntOp.andi x v reducesTo_S4x2048_S_d0_1 h_S_) main_v26 main_c_9
  let main_v28 : IVec S_ 1 := andi main_v23 main_v27
  let main_v29 : FVec F S4x2048 .f32 := Host.absf main_arg6
  let main_cst_10 : FVec F S_ .f32 := constant S_ .f32 0x7F800000#32
  let main_v30 : FVec F S4x2048 .f32 := broadcastInDim S4x2048 ![] bcast_S_S4x2048 main_cst_10
  let main_v31 : IVec S4x2048 1 := cmpf .olt main_v29 main_v30
  let main_c_11 : IVec S_ 1 := constantI S_ 1 1#1
  let main_v32 : IVec S_ 1 := (fun x v => Host.reduce IntOp.andi x v reducesTo_S4x2048_S_d0_1 h_S_) main_v31 main_c_11
  let main_v33 : IVec S_ 1 := andi main_v28 main_v32
  main_v33

def fn {F : FTy → Type} [FloatOps F] (main_arg0 : FVec F S8192x2048 .f32) (main_arg1 : FVec F S8192x2048 .f32) (main_arg2 : FVec F S8192x2048 .f32) (main_arg3 : FVec F S4x2048x2048 .f32) (main_arg4 : FVec F S4x2048x2048 .f32) (main_arg5 : FVec F S4x2048 .f32) (main_arg6 : FVec F S4x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_arg6 main_v13 main_v16
-- ==== Kernel.lean ====
abbrev S8192x2048 : Shape := ⟨2, ![8192, 2048]⟩
abbrev S4x2048x2048 : Shape := ⟨3, ![4, 2048, 2048]⟩
abbrev S4x2048 : Shape := ⟨2, ![4, 2048]⟩
abbrev S8192x4096 : Shape := ⟨2, ![8192, 4096]⟩
abbrev S4x2048x4096 : Shape := ⟨3, ![4, 2048, 4096]⟩
abbrev S512x4096 : Shape := ⟨2, ![512, 4096]⟩
abbrev S512x256 : Shape := ⟨2, ![512, 256]⟩
abbrev S4x256x4096 : Shape := ⟨3, ![4, 256, 4096]⟩
abbrev S4x256 : Shape := ⟨2, ![4, 256]⟩
abbrev S1x256x4096 : Shape := ⟨3, ![1, 256, 4096]⟩
abbrev S256x4096 : Shape := ⟨2, ![256, 4096]⟩
abbrev S1x256 : Shape := ⟨2, ![1, 256]⟩
abbrev S256 : Shape := ⟨1, ![256]⟩

abbrev nBuf : Space → Nat
  | .hbm => 16
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S4x2048x2048, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S8192x2048, .bf16⟩
  | .hbm, ⟨8, _⟩ => ⟨S8192x2048, .bf16⟩
  | .hbm, ⟨9, _⟩ => ⟨S8192x4096, .bf16⟩
  | .hbm, ⟨10, _⟩ => ⟨S4x2048x2048, .bf16⟩
  | .hbm, ⟨11, _⟩ => ⟨S4x2048x2048, .bf16⟩
  | .hbm, ⟨12, _⟩ => ⟨S4x2048x4096, .bf16⟩
  | .hbm, ⟨13, _⟩ => ⟨S4x2048, .f32⟩
  | .hbm, ⟨14, _⟩ => ⟨S8192x2048, .f32⟩
  | .hbm, ⟨15, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S512x256, .f32⟩
  | .local _ .vmem, ⟨3, _⟩ => ⟨S512x256, .f32⟩
  | .local _ .vmem, ⟨4, _⟩ => ⟨S4x256x4096, .bf16⟩
  | .local _ .vmem, ⟨5, _⟩ => ⟨S4x256x4096, .bf16⟩
  | .local _ .vmem, ⟨6, _⟩ => ⟨S4x256, .f32⟩
  | .local _ .vmem, ⟨7, _⟩ => ⟨S4x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  concatenates_S8192x2048_S8192x2048_S8192x4096_d1 : Shape.Concatenates [S8192x2048, S8192x2048] S8192x4096 1
  concatenates_S4x2048x2048_S4x2048x2048_S4x2048x4096_d2 : Shape.Concatenates [S4x2048x2048, S4x2048x2048] S4x2048x4096 2
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  inb_S4x256x4096_S1x256x4096_0_0_0 : ∀ a, (![0, 0, 0] : Fin 3 → Nat) a + S1x256x4096.size a ≤ S4x256x4096.size a
  h_S1x256x4096 : 0 < S1x256x4096.numel
  shapeCasts_S1x256x4096_S256x4096 : S1x256x4096.ShapeCasts S256x4096
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S4x256x4096_S1x256x4096_1_0_0 : ∀ a, (![1, 0, 0] : Fin 3 → Nat) a + S1x256x4096.size a ≤ S4x256x4096.size a
  inb_S4x256_S1x256_1_0 : ∀ a, (![1, 0] : Fin 2 → Nat) a + S1x256.size a ≤ S4x256.size a
  inb_S4x256x4096_S1x256x4096_2_0_0 : ∀ a, (![2, 0, 0] : Fin 3 → Nat) a + S1x256x4096.size a ≤ S4x256x4096.size a
  inb_S4x256_S1x256_2_0 : ∀ a, (![2, 0] : Fin 2 → Nat) a + S1x256.size a ≤ S4x256.size a
  inb_S4x256x4096_S1x256x4096_3_0_0 : ∀ a, (![3, 0, 0] : Fin 3 → Nat) a + S1x256x4096.size a ≤ S4x256x4096.size a
  inb_S4x256_S1x256_3_0 : ∀ a, (![3, 0] : Fin 2 → Nat) a + S1x256.size a ≤ S4x256.size a
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x2048.size a
  hwx0_1 : ∀ i : grid0.Coords, EltTy.bits .f32 = 32 ∨ (Rect.block (s := S8192x2048) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x4096.size a ≤ S4x2048x4096.size a
  hwx0_2 : ∀ i : grid0.Coords, EltTy.bits .bf16 = 32 ∨ (Rect.block (s := S4x2048x4096) S4x256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x2048.size a
  hwx0_3 : ∀ i : grid0.Coords, EltTy.bits .f32 = 32 ∨ (Rect.block (s := S4x2048) S4x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x2048.size a
  hwx0_4 : ∀ i : grid0.Coords, EltTy.bits .f32 = 32 ∨ (Rect.block (s := S8192x2048) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x2048.size a
  hwx0_5 : ∀ i : grid0.Coords, EltTy.bits .f32 = 32 ∨ (Rect.block (s := S8192x2048) S512x256.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4x2048x2048 : Shape := ⟨3, ![4, 2048, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S4x1x2048 : Shape := ⟨3, ![4, 1, 2048]⟩
abbrev S1x8192x2048 : Shape := ⟨3, ![1, 8192, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S4x2048x2048, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S4x2048x8192, .f32⟩
  | .hbm, ⟨8, _⟩ => ⟨S4x8192x2048, .f32⟩
  | .hbm, ⟨9, _⟩ => ⟨S4x1x2048, .f32⟩
  | .hbm, ⟨10, _⟩ => ⟨S4x8192x2048, .f32⟩
  | .hbm, ⟨11, _⟩ => ⟨S4x8192x2048, .f32⟩
  | .hbm, ⟨12, _⟩ => ⟨S4x2048x8192, .f32⟩
  | .hbm, ⟨13, _⟩ => ⟨S4x8192x2048, .f32⟩
  | .hbm, ⟨14, _⟩ => ⟨S4x1x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S1x8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S1x8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S1x8192x2048, .f32⟩
  | .hbm, ⟨39, _⟩ => ⟨S8192x2048, .f32⟩
  | .hbm, ⟨40, _⟩ => ⟨S8192x2048, .f32⟩
  | .hbm, ⟨41, _⟩ => ⟨S1x8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x2048x8192_S4x8192x2048_0_2_1 : S4x2048x8192.Transposes [0, 2, 1] S4x8192x2048
  bcast_S4x2048_S4x1x2048_0_2 : S4x2048.BroadcastsInDim S4x1x2048 (![0, 2] : Fin 2 → Fin S4x1x2048.rank)
  bcast_S4x1x2048_S4x8192x2048_0_1_2 : S4x1x2048.BroadcastsInDim S4x8192x2048 (![0, 1, 2] : Fin 3 → Fin S4x8192x2048.rank)
  slices_S4x8192x2048_S1x8192x2048_0_0_0 : S4x8192x2048.Slices ![0, 0, 0] S1x8192x2048
  shapeCasts_S1x8192x2048_S8192x2048 : S1x8192x2048.ShapeCasts S8192x2048
  bcast_S_S8192x2048 : S_.BroadcastsInDim S8192x2048 (![] : Fin 0 → Fin S8192x2048.rank)
  slices_S4x8192x2048_S1x8192x2048_1_0_0 : S4x8192x2048.Slices ![1, 0, 0] S1x8192x2048
  slices_S4x8192x2048_S1x8192x2048_2_0_0 : S4x8192x2048.Slices ![2, 0, 0] S1x8192x2048
  slices_S4x8192x2048_S1x8192x2048_3_0_0 : S4x8192x2048.Slices ![3, 0, 0] S1x8192x2048
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.GateBlock.lean ====
/-
  The arithmetic of one grid step, read at a cell of the [512, 256] block it writes.

  A step holds four blocks: activations `X` [512, 4096] (a tile of batch rows, all 4096 features), old cell state
  `C` [512, 256], weights `Wb` [4, 256, 4096] (all four gates, a tile of hidden units) and bias `Bb` [4, 256].
  For gate `g` it contracts the feature axis of `X` against slab `g` of `Wb` and adds row `g` of `Bb` to every batch
  row. So at cell `(p, q)` gate `g`'s pre-activation is

      gateSum g p q = Σ_{k < 4096} X[p,k] · Wb[g,q,k] + Bb[g,q],

  the block written to the new cell state holds  σ(gateSum 0) · C[p,q] + σ(gateSum 1) · tanh(gateSum 2)  there, and
  the block written to the new hidden state holds  σ(gateSum 3) · tanh of that.

  The contraction is read as a plain sum over the one contracted coordinate (the accumulator starts at zero); the
  reshapes between [1, 256, 4096] and [256, 4096] and between [1, 256] and [256] keep row-major position; the
  broadcast of a [1, 256] row over 512 batch rows reads the row at the hidden coordinate.
-/
import proofs.«164481_j21354577396155_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx
open scoped BigOperators

/-! ## The contraction at a cell -/

/-- At output cell `(p, q)` and contracted coordinate `k` the left operand is read at `(p, k)`. -/
theorem lhs_idx (p : Fin 512) (q : Fin 256) (k : Fin 4096) :
    dot_S512x4096_S256x4096_S512x256_1_1_0_0_n_n.lhsIdx (ix2 p q) ((contrEquiv1 dot_S512x4096_S256x4096_S512x256_1_1_0_0_n_n 4096 rfl rfl).symm k) = ix2 p k := by
  funext a; apply Fin.ext
  match a with
  | ⟨0, _⟩ =>
    show (dot_S512x4096_S256x4096_S512x256_1_1_0_0_n_n.lhsIdx (ix2 p q) ((contrEquiv1 dot_S512x4096_S256x4096_S512x256_1_1_0_0_n_n 4096 rfl rfl).symm k) 0).val = p.val
    unfold DotDims.lhsIdx
    rw [dif_neg (show ¬(0 : Fin S512x4096.rank) ∈ dot_S512x4096_S256x4096_S512x256_1_1_0_0_n_n.lhsBatch by decide),
      dif_pos (show (0 : Fin S512x4096.rank) ∈ dot_S512x4096_S256x4096_S512x256_1_1_0_0_n_n.lhsNonContracting by decide)]
    rfl
  | ⟨1, _⟩ =>
    exact (dot_S512x4096_S256x4096_S512x256_1_1_0_0_n_n.lhsIdx_val_of_single rfl _ _).trans (contrEquiv1_symm_val dot_S512x4096_S256x4096_S512x256_1_1_0_0_n_n 4096 rfl rfl k)

/-- and the right operand at `(q, k)`. -/
theorem rhs_idx (p : Fin 512) (q : Fin 256) (k : Fin 4096) :
    dot_S512x4096_S256x4096_S512x256_1_1_0_0_n_n.rhsIdx (ix2 p q) ((contrEquiv1 dot_S512x4096_S256x4096_S512x256_1_1_0_0_n_n 4096 rfl rfl).symm k) = ix2 q k := by
  funext a; apply Fin.ext
  match a with
  | ⟨0, _⟩ =>
    show (dot_S512x4096_S256x4096_S512x256_1_1_0_0_n_n.rhsIdx (ix2 p q) ((contrEquiv1 dot_S512x4096_S256x4096_S512x256_1_1_0_0_n_n 4096 rfl rfl).symm k) 0).val = q.val
    unfold DotDims.rhsIdx
    rw [dif_neg (show ¬(0 : Fin S256x4096.rank) ∈ dot_S512x4096_S256x4096_S512x256_1_1_0_0_n_n.rhsBatch by decide),
      dif_pos (show (0 : Fin S256x4096.rank) ∈ dot_S512x4096_S256x4096_S512x256_1_1_0_0_n_n.rhsNonContracting by decide)]
    rfl
  | ⟨1, _⟩ =>
    exact (dot_S512x4096_S256x4096_S512x256_1_1_0_0_n_n.rhsIdx_val_of_single rfl _ _).trans (contrEquiv1_symm_val dot_S512x4096_S256x4096_S512x256_1_1_0_0_n_n 4096 rfl rfl k)

/-- One gate's matrix product into a zero accumulator, at cell `(p, q)`: the sum over the 4096 features of the
    activation times the weight of hidden unit `q` (the weight slab still carrying its unit gate axis). -/
theorem mm_at (X : FVec Ideal S512x4096 .bf16) (W1 : FVec Ideal S1x256x4096 .bf16) (p : Fin 512) (q : Fin 256) :
    matmul dot_S512x4096_S256x4096_S512x256_1_1_0_0_n_n none (shapeCast S512x4096 X shapeCasts_S512x4096_S512x4096)
        (shapeCast S256x4096 W1 shapeCasts_S1x256x4096_S256x4096) (constant (F := Ideal) S512x256 .f32 0x00000000#32) (ix2 p q)
      = ∑ k : Fin 4096, X (ix2 p k) * W1 (ix3 (0 : Fin 1) q k) := by
  rw [shapeCast_self]
  refine (Ideal.matmul_constant_zero_apply dot_S512x4096_S256x4096_S512x256_1_1_0_0_n_n none X _ (ix2 p q)).trans ?_
  rw [← Equiv.sum_comp (contrEquiv1 dot_S512x4096_S256x4096_S512x256_1_1_0_0_n_n 4096 rfl rfl).symm]
  refine Finset.sum_congr rfl fun k _ => ?_
  rw [lhs_idx p q k, rhs_idx p q k]
  refine congrArg (X (ix2 p k) * ·) ?_
  exact shapeCast_apply W1 shapeCasts_S1x256x4096_S256x4096 (ix2 q k) (ix3 (0 : Fin 1) q k)
    (by rw [Shape.rowMajor_val_three, Shape.rowMajor_val_two]
        show (0 * 256 + q.val) * 4096 + k.val = q.val * 4096 + k.val; omega)

/-- A bias row [1, 256], flattened, restored and broadcast over the 512 batch rows, at cell `(p, q)`: the row's entry
    `q`. -/
theorem bias_row_at (B1 : FVec Ideal S1x256 .f32) (p : Fin 512) (q : Fin 256) :
    broadcastTo S512x256 (shapeCast S1x256 (shapeCast S256 B1 shapeCasts_S1x256_S256) shapeCasts_S256_S1x256)
        broadcasts_S1x256_S512x256 (ix2 p q) = B1 (ix2 (0 : Fin 1) q) := by
  rw [shapeCast_shapeCast]
  exact broadcastTo_apply B1 broadcasts_S1x256_S512x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-! ## The partial loads: one gate's slab of the weights block, one gate's row of the bias block -/

/-- Loading the [1, 256, 4096] slab at gate offset `g` of the weights block reads the block at gate `g`. -/
theorem ld_slab (Wb : Vec Ideal S4x256x4096 .bf16) (off : Fin 3 → Nat)
    (inb : ∀ a, off a + S1x256x4096.size a ≤ S4x256x4096.size a) (g : Fin 4) (hoff : off = ![g.val, 0, 0])
    (q : Fin 256) (k : Fin 4096) :
    View.ld Wb (Rect.unit (s := S4x256x4096) off S1x256x4096.size inb) (ix3 (0 : Fin 1) q k) = Wb (ix3 g q k) := by
  subst hoff
  show Wb _ = Wb _
  refine congrArg Wb (funext fun a => Fin.ext ?_)
  match a with
  | ⟨0, _⟩ => show g.val + 1 * 0 = g.val; omega
  | ⟨1, _⟩ => show 0 + 1 * q.val = q.val; omega
  | ⟨2, _⟩ => show 0 + 1 * k.val = k.val; omega

/-- Loading the [1, 256] row at gate offset `g` of the bias block reads the block at gate `g`. -/
theorem ld_row (Bb : Vec Ideal S4x256 .f32) (off : Fin 2 → Nat)
    (inb : ∀ a, off a + S1x256.size a ≤ S4x256.size a) (g : Fin 4) (hoff : off = ![g.val, 0]) (q : Fin 256) :
    View.ld Bb (Rect.unit (s := S4x256) off S1x256.size inb) (ix2 (0 : Fin 1) q) = Bb (ix2 g q) := by
  subst hoff
  show Bb _ = Bb _
  refine congrArg Bb (funext fun a => Fin.ext ?_)
  match a with
  | ⟨0, _⟩ => show g.val + 1 * 0 = g.val; omega
  | ⟨1, _⟩ => show 0 + 1 * q.val = q.val; omega

/-! ## A gate, and the two blocks a step writes -/

/-- Gate `g`'s pre-activation at cell `(p, q)` of a step's blocks. -/
def gateSum (X : Vec Ideal S512x4096 .bf16) (Wb : Vec Ideal S4x256x4096 .bf16) (Bb : Vec Ideal S4x256 .f32)
    (g : Fin 4) (p : Fin 512) (q : Fin 256) : EReal :=
  (∑ k : Fin 4096, X (ix2 p k) * Wb (ix3 g q k)) + Bb (ix2 g q)

/-- The product with slab `g` plus the broadcast of row `g`, at a cell, is `gateSum g`. -/
theorem gate_at (X : Vec Ideal S512x4096 .bf16) (Wb : Vec Ideal S4x256x4096 .bf16) (Bb : Vec Ideal S4x256 .f32) (g : Fin 4)
    (offW : Fin 3 → Nat) (inbW : ∀ a, offW a + S1x256x4096.size a ≤ S4x256x4096.size a) (hW : offW = ![g.val, 0, 0])
    (offB : Fin 2 → Nat) (inbB : ∀ a, offB a + S1x256.size a ≤ S4x256.size a) (hB : offB = ![g.val, 0])
    (p : Fin 512) (q : Fin 256) :
    matmul (F := Ideal) (φ₁ := .bf16) (φ₂ := .bf16) dot_S512x4096_S256x4096_S512x256_1_1_0_0_n_n none (shapeCast S512x4096 X shapeCasts_S512x4096_S512x4096)
        (shapeCast S256x4096 (View.ld Wb (Rect.unit (s := S4x256x4096) offW S1x256x4096.size inbW)) shapeCasts_S1x256x4096_S256x4096)
        (constant (F := Ideal) S512x256 .f32 0x00000000#32) (ix2 p q)
      + broadcastTo S512x256 (shapeCast S1x256 (shapeCast S256 (View.ld Bb (Rect.unit (s := S4x256) offB S1x256.size inbB))
          shapeCasts_S1x256_S256) shapeCasts_S256_S1x256) broadcasts_S1x256_S512x256 (ix2 p q)
      = gateSum X Wb Bb g p q := by
  unfold gateSum
  refine congrArg₂ (· + ·) ((mm_at X _ p q).trans ?_) ((bias_row_at _ p q).trans (ld_row Bb offB inbB g hB q))
  exact Finset.sum_congr rfl fun k _ => congrArg (X (ix2 p k) * ·) (ld_slab Wb offW inbW g hW q k)

theorem hz2 : (![0, 0] : Fin 2 → Nat) = fun _ => 0 := funext fun a => by fin_cases a <;> rfl

/-- What a step leaves at cell `(p, q)` of the new cell state's block. -/
def cellBlock (X : Vec Ideal S512x4096 .bf16) (C : Vec Ideal S512x256 .f32) (Wb : Vec Ideal S4x256x4096 .bf16)
    (Bb : Vec Ideal S4x256 .f32) (p : Fin 512) (q : Fin 256) : EReal :=
  Ideal.logistic (gateSum X Wb Bb 0 p q) * C (ix2 p q)
    + Ideal.logistic (gateSum X Wb Bb 1 p q) * Ideal.tanh (gateSum X Wb Bb 2 p q)

/-- The block stored to the new cell state, at a cell. -/
theorem cell_block_at (X : Vec Ideal S512x4096 .bf16) (C : Vec Ideal S512x256 .f32) (Wb : Vec Ideal S4x256x4096 .bf16)
    (Bb : Vec Ideal S4x256 .f32) (p : Fin 512) (q : Fin 256) :
    out0_4 X C Wb Bb (ix2 p q) = cellBlock X C Wb Bb p q := by
  unfold out0_4
  rw [View.canon_unit_zero hz2]
  simp only [View.ld_unit_zero (S := S512x4096) hz2, View.ld_unit_zero (S := S512x256) hz2]
  unfold cellBlock
  rw [← gate_at X Wb Bb 0 _ inb_S4x256x4096_S1x256x4096_0_0_0 rfl _ inb_S4x256_S1x256_0_0 rfl p q,
    ← gate_at X Wb Bb 1 _ inb_S4x256x4096_S1x256x4096_1_0_0 rfl _ inb_S4x256_S1x256_1_0 rfl p q,
    ← gate_at X Wb Bb 2 _ inb_S4x256x4096_S1x256x4096_2_0_0 rfl _ inb_S4x256_S1x256_2_0 rfl p q]
  rfl

/-- The block stored to the new hidden state, at a cell: the output gate times tanh of the new cell state there. -/
theorem hidden_block_at (X : Vec Ideal S512x4096 .bf16) (C : Vec Ideal S512x256 .f32) (Wb : Vec Ideal S4x256x4096 .bf16)
    (Bb : Vec Ideal S4x256 .f32) (p : Fin 512) (q : Fin 256) :
    out0_5 X C Wb Bb (ix2 p q) = Ideal.logistic (gateSum X Wb Bb 3 p q) * Ideal.tanh (cellBlock X C Wb Bb p q) := by
  unfold out0_5
  rw [View.canon_unit_zero hz2]
  simp only [View.ld_unit_zero (S := S512x4096) hz2, View.ld_unit_zero (S := S512x256) hz2]
  unfold cellBlock
  rw [← gate_at X Wb Bb 0 _ inb_S4x256x4096_S1x256x4096_0_0_0 rfl _ inb_S4x256_S1x256_0_0 rfl p q,
    ← gate_at X Wb Bb 1 _ inb_S4x256x4096_S1x256x4096_1_0_0 rfl _ inb_S4x256_S1x256_1_0 rfl p q,
    ← gate_at X Wb Bb 2 _ inb_S4x256x4096_S1x256x4096_2_0_0 rfl _ inb_S4x256_S1x256_2_0 rfl p q,
    ← gate_at X Wb Bb 3 _ inb_S4x256x4096_S1x256x4096_3_0_0 rfl _ inb_S4x256_S1x256_3_0 rfl p q]
  rfl

end Cert.KernelIdeal.Block

end
-- ==== Proof.LstmCell.lean ====
/-
  One step of an LSTM cell over the extended reals, as ONE function of its seven argument arrays, index by index.

  For a batch row `b` and a hidden unit `j` the four gate pre-activations are
      pre g b j = (Σ_k W_x[g,j,k] · x[b,k] + b_x[g,j]) + (Σ_k W_h[g,j,k] · h[b,k] + b_h[g,j]),   g = 0,1,2,3
  (forget, input, candidate, output), the new cell state is
      c'[b,j] = σ(pre 0) · c[b,j] + σ(pre 1) · tanh(pre 2)
  and the new hidden state is  h'[b,j] = σ(pre 3) · tanh(c'[b,j]),  with σ x = 1 / (1 + e^(-x)).

  A fused implementation contracts ONE axis of length 4096 — the input features followed by the hidden features —
  against the two weight matrices laid side by side, and adds the two biases summed beforehand. The two spellings
  are equal on the extended reals with no finiteness assumption: a sum over 4096 terms is the sum of its two halves,
  products commute, and additions regroup (`fused_sum`). None of these steps distributes a product over a sum or
  cancels anything, so infinite entries do no harm.
-/
import Idealize.ShloMosaic.PureOps.Ideal
import Idealize.ShloMosaic.Lib.ValueIdx
import Idealize.ShloMosaic.Lib.IdealHost

noncomputable section

namespace Cert.LstmCell

open Idealize.ShloMosaic Idealize.ShloMosaic.ValueIdx
open scoped BigOperators

/-- Activations and states: batch × features. -/
abbrev Act : Shape := ⟨2, ![8192, 2048]⟩
/-- A weight array: gate × hidden unit × feature. -/
abbrev Wt : Shape := ⟨3, ![4, 2048, 2048]⟩
/-- A bias array: gate × hidden unit. -/
abbrev Bs : Shape := ⟨2, ![4, 2048]⟩

/-- Gate `g`'s pre-activation at batch row `b`, hidden unit `j`: the input projection with its bias plus the
    recurrent projection with its bias. -/
def pre (x h : Act.Idx → EReal) (Wx Wh : Wt.Idx → EReal) (bx bh : Bs.Idx → EReal)
    (g : Fin 4) (b : Fin 8192) (j : Fin 2048) : EReal :=
  ((∑ k : Fin 2048, Wx (ix3 g j k) * x (ix2 b k)) + bx (ix2 g j))
    + ((∑ k : Fin 2048, Wh (ix3 g j k) * h (ix2 b k)) + bh (ix2 g j))

/-- The new cell state: forget gate times the old state plus input gate times the candidate. -/
def cell (x c h : Act.Idx → EReal) (Wx Wh : Wt.Idx → EReal) (bx bh : Bs.Idx → EReal) : Act.Idx → EReal := fun i =>
  Ideal.logistic (pre x h Wx Wh bx bh 0 (i 0) (i 1)) * c i
    + Ideal.logistic (pre x h Wx Wh bx bh 1 (i 0) (i 1)) * Ideal.tanh (pre x h Wx Wh bx bh 2 (i 0) (i 1))

/-- The new hidden state: output gate times tanh of the new cell state. -/
def hidden (x c h : Act.Idx → EReal) (Wx Wh : Wt.Idx → EReal) (bx bh : Bs.Idx → EReal) : Act.Idx → EReal := fun i =>
  Ideal.logistic (pre x h Wx Wh bx bh 3 (i 0) (i 1)) * Ideal.tanh (cell x c h Wx Wh bx bh i)

/-- A sum over 4096 terms whose first 2048 are `f` and whose last 2048 are `g`, with two biases added as one, is the
    two half sums each with its own bias. Commutative-monoid reasoning only: it holds at infinite entries too. -/
theorem fused_sum (F : Fin 4096 → EReal) (f g : Fin 2048 → EReal) (p q : EReal)
    (hf : ∀ k : Fin 2048, F ⟨k.val, by have := k.isLt; omega⟩ = f k)
    (hg : ∀ k : Fin 2048, F ⟨2048 + k.val, by have := k.isLt; omega⟩ = g k) :
    (∑ k : Fin 4096, F k) + (p + q) = ((∑ k : Fin 2048, f k) + p) + ((∑ k : Fin 2048, g k) + q) := by
  have e : (∑ k : Fin 4096, F k) = (∑ k : Fin 2048, f k) + ∑ k : Fin 2048, g k := by
    have s := Fin.sum_univ_add (a := 2048) (b := 2048) (F : Fin (2048 + 2048) → EReal)
    exact s.trans (congrArg₂ (· + ·) (Finset.sum_congr rfl fun k _ => hf k) (Finset.sum_congr rfl fun k _ => hg k))
  rw [e, add_add_add_comm]

/-- The sigmoid written out with the f32 word of one — one over one plus the exponential of the negation — is the
    logistic function. -/
theorem sigmoid_expanded (z : EReal) :
    Ideal.div (Ideal.ofBits .f32 0x3F800000#32) (Ideal.ofBits .f32 0x3F800000#32 + Ideal.exp (-z)) = Ideal.logistic z := by
  rw [Ideal.ofBits_one_f32]; rfl

end Cert.LstmCell

end
-- ==== Proof.KernelInputs.lean ====
/-
  What the fused kernel is launched on. Before the launch three arrays are prepared from the seven arguments:

    * the activations [8192, 4096]: row `b` is `x[b, :]` followed by `h[b, :]`;
    * the weights [4, 2048, 4096]: row `(g, j)` is `W_x[g, j, :]` followed by `W_h[g, j, :]`;
    * the bias [4, 2048]: `b_x + b_h`.

  The narrowing of the activations and weights to a shorter float format is the identity on the extended reals, so
  each entry of a prepared array IS an entry of an argument: below feature coordinate 2048 the first operand's, from
  2048 on the second operand's at the coordinate less 2048.
-/
import proofs.«164481_j21354577396155_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Inputs

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The seven arguments on core `c`, as plain functions of an index: inputs `x`, old cell state `c`, old hidden state
    `h`, the two weight arrays and the two biases. -/
abbrev argX (c : Dev nD) : S8192x2048.Idx → EReal := m ((c : Thread nD τ).loc main_arg0)
abbrev argC (c : Dev nD) : S8192x2048.Idx → EReal := m ((c : Thread nD τ).loc main_arg1)
abbrev argH (c : Dev nD) : S8192x2048.Idx → EReal := m ((c : Thread nD τ).loc main_arg2)
abbrev argWx (c : Dev nD) : S4x2048x2048.Idx → EReal := m ((c : Thread nD τ).loc main_arg3)
abbrev argWh (c : Dev nD) : S4x2048x2048.Idx → EReal := m ((c : Thread nD τ).loc main_arg4)
abbrev argBx (c : Dev nD) : S4x2048.Idx → EReal := m ((c : Thread nD τ).loc main_arg5)
abbrev argBh (c : Dev nD) : S4x2048.Idx → EReal := m ((c : Thread nD τ).loc main_arg6)

/-- The three prepared arrays as the launch finds them on core `c`, as plain functions of an index. -/
abbrev prepActs (c : Dev nD) : S8192x4096.Idx → EReal := V m c main_v2
abbrev prepW (c : Dev nD) : S4x2048x4096.Idx → EReal := V m c main_v5
abbrev prepB (c : Dev nD) : S4x2048.Idx → EReal := V m c main_v6

/-- The activations array as the launch finds it: `x` and `h` side by side along the feature axis. -/
theorem acts_eq (c : Dev nD) : (V m c main_v2 : S8192x4096.Idx → EReal)
    = concatenate S8192x4096 1
        [⟨S8192x2048, truncf (F := Ideal) (φ := .f32) FTy.bf16 (argX m c) bitsLt_bf16_f32⟩,
          ⟨S8192x2048, truncf (F := Ideal) (φ := .f32) FTy.bf16 (argH m c) bitsLt_bf16_f32⟩]
        concatenates_S8192x2048_S8192x2048_S8192x4096_d1 := by
  dsimp only [Gen.V, Gen.hostOps0]; after_results

/-- The weights array as the launch finds it: `W_x` and `W_h` side by side along the feature axis. -/
theorem weights_eq (c : Dev nD) : (V m c main_v5 : S4x2048x4096.Idx → EReal)
    = concatenate S4x2048x4096 2
        [⟨S4x2048x2048, truncf (F := Ideal) (φ := .f32) FTy.bf16 (argWx m c) bitsLt_bf16_f32⟩,
          ⟨S4x2048x2048, truncf (F := Ideal) (φ := .f32) FTy.bf16 (argWh m c) bitsLt_bf16_f32⟩]
        concatenates_S4x2048x2048_S4x2048x2048_S4x2048x4096_d2 := by
  dsimp only [Gen.V, Gen.hostOps0]; after_results

/-- The bias array as the launch finds it: the two biases added. -/
theorem bias_eq (c : Dev nD) : (V m c main_v6 : S4x2048.Idx → EReal)
    = addf (F := Ideal) (φ := .f32) (argBx m c) (argBh m c) := by
  dsimp only [Gen.V, Gen.hostOps0]; after_results

/-- Below feature 2048 the activations array holds `x`. -/
theorem acts_lo (c : Dev nD) (b : Fin 8192) (k : Fin 2048) :
    prepActs m c (ix2 b (⟨k.val, by have := k.isLt; omega⟩ : Fin 4096)) = argX m c (ix2 b k) := by
  unfold prepActs
  rw [acts_eq]
  refine (concatenate_pair_apply_left (s₁ := S8192x2048) (s₂ := S8192x2048) (1 : Fin S8192x4096.rank) _ _ _ _ rfl (ix2 b k)
    (fun a => match a with | ⟨0, _⟩ => rfl | ⟨1, _⟩ => rfl)).trans ?_
  rfl

/-- From feature 2048 on it holds `h`, at the feature less 2048. -/
theorem acts_hi (c : Dev nD) (b : Fin 8192) (k : Fin 2048) :
    prepActs m c (ix2 b (⟨2048 + k.val, by have := k.isLt; omega⟩ : Fin 4096)) = argH m c (ix2 b k) := by
  unfold prepActs
  rw [acts_eq]
  refine (concatenate_pair_apply_right (s₁ := S8192x2048) (s₂ := S8192x2048) (1 : Fin S8192x4096.rank) _ _ _ _ rfl rfl (ix2 b k)
    (fun a => match a with | ⟨0, _⟩ => fun _ => rfl | ⟨1, _⟩ => fun hne => absurd rfl hne)
    (by show k.val + 2048 = 2048 + k.val; omega)).trans ?_
  rfl

/-- Below feature 2048 the weights array holds `W_x`. -/
theorem weights_lo (c : Dev nD) (g : Fin 4) (j : Fin 2048) (k : Fin 2048) :
    prepW m c (ix3 g j (⟨k.val, by have := k.isLt; omega⟩ : Fin 4096)) = argWx m c (ix3 g j k) := by
  unfold prepW
  rw [weights_eq]
  refine (concatenate_pair_apply_left (s₁ := S4x2048x2048) (s₂ := S4x2048x2048) (2 : Fin S4x2048x4096.rank) _ _ _ _ rfl (ix3 g j k)
    (fun a => match a with | ⟨0, _⟩ => rfl | ⟨1, _⟩ => rfl | ⟨2, _⟩ => rfl)).trans ?_
  rfl

/-- From feature 2048 on it holds `W_h`, at the feature less 2048. -/
theorem weights_hi (c : Dev nD) (g : Fin 4) (j : Fin 2048) (k : Fin 2048) :
    prepW m c (ix3 g j (⟨2048 + k.val, by have := k.isLt; omega⟩ : Fin 4096)) = argWh m c (ix3 g j k) := by
  unfold prepW
  rw [weights_eq]
  refine (concatenate_pair_apply_right (s₁ := S4x2048x2048) (s₂ := S4x2048x2048) (2 : Fin S4x2048x4096.rank) _ _ _ _ rfl rfl (ix3 g j k)
    (fun a => match a with | ⟨0, _⟩ => fun _ => rfl | ⟨1, _⟩ => fun _ => rfl | ⟨2, _⟩ => fun hne => absurd rfl hne)
    (by show k.val + 2048 = 2048 + k.val; omega)).trans ?_
  rfl

/-- The bias array holds the sum of the two biases. -/
theorem bias_at (c : Dev nD) (g : Fin 4) (j : Fin 2048) :
    prepB m c (ix2 g j) = argBx m c (ix2 g j) + argBh m c (ix2 g j) := by
  unfold prepB
  rw [bias_eq]; rfl

end Cert.KernelIdeal.Inputs

end
-- ==== Proof.FusedGate.lean ====
/-
  A gate computed from the prepared arrays is the gate of the seven arguments.

  For batch row `B`, hidden unit `J` and gate `g` the fused form contracts all 4096 features of the prepared activations
  against the prepared weights and adds the prepared bias. Its first 2048 products are `x[B,k] · W_x[g,J,k]`, its last
  2048 are `h[B,k] · W_h[g,J,k]`, and its bias is `b_x[g,J] + b_h[g,J]`: splitting the sum, commuting each product and
  regrouping the additions gives the two-projection form the specification states.
-/
import proofs.«164481_j21354577396155_2_alg».proof.Proof.LstmCell
import proofs.«164481_j21354577396155_2_alg».proof.Proof.KernelInputs

noncomputable section

namespace Cert.KernelIdeal.Inputs

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- The specification's gate pre-activation of this core's arguments. -/
abbrev preOf (c : Dev nD) (g : Fin 4) (B : Fin 8192) (J : Fin 2048) : EReal :=
  Cert.LstmCell.pre (argX m c) (argH m c) (argWx m c) (argWh m c) (argBx m c) (argBh m c) g B J

/-- The fused gate over the prepared arrays is the specification's gate. -/
theorem fused_gate (c : Dev nD) (g : Fin 4) (B : Fin 8192) (J : Fin 2048) :
    (∑ k : Fin 4096, prepActs m c (ix2 B k) * prepW m c (ix3 g J k)) + prepB m c (ix2 g J) = preOf m c g B J := by
  rw [bias_at]
  unfold preOf Cert.LstmCell.pre
  refine Cert.LstmCell.fused_sum
    (fun k => prepActs m c (ix2 B k) * prepW m c (ix3 g J k))
    (fun k => argWx m c (ix3 g J k) * argX m c (ix2 B k))
    (fun k => argWh m c (ix3 g J k) * argH m c (ix2 B k))
    (argBx m c (ix2 g J)) (argBh m c (ix2 g J)) (fun k => ?_) (fun k => ?_)
  · show prepActs m c (ix2 B (⟨k.val, by have := k.isLt; omega⟩ : Fin 4096))
        * prepW m c (ix3 g J (⟨k.val, by have := k.isLt; omega⟩ : Fin 4096))
      = argWx m c (ix3 g J k) * argX m c (ix2 B k)
    rw [acts_lo, weights_lo, mul_comm]
  · show prepActs m c (ix2 B (⟨2048 + k.val, by have := k.isLt; omega⟩ : Fin 4096))
        * prepW m c (ix3 g J (⟨2048 + k.val, by have := k.isLt; omega⟩ : Fin 4096))
      = argWh m c (ix3 g J k) * argH m c (ix2 B k)
    rw [acts_hi, weights_hi, mul_comm]

end Cert.KernelIdeal.Inputs

end
-- ==== Proof.KernelResult.lean ====
/-
  What the fused kernel leaves in its two result arrays: the new cell state and the new hidden state of the arguments.

  The grid has 8 × 16 points; point `t` owns the tile of batch rows `bt` (of 16, 512 rows each) and the tile of hidden
  units `ht` (of 8, 256 units each). At that point the activations block is rows `512·bt …` of the prepared
  activations with all 4096 features, the weights block is hidden units `256·ht …` of all four gates, the bias block
  likewise, and the old cell state's block is the `(bt, ht)` tile — the same tile both results are written to. So cell
  `(p, q)` of the step's blocks is entry `(512·bt + p, 256·ht + q)` of the arrays, each gate computed there is the
  specification's gate at that entry, and what the point writes back is its tile of the specification's arrays. The
  128 tiles cover [8192, 2048] (entry `(r, s)` lies in tile `(r / 512, s / 256)`), hence the arrays after the run.
-/
import proofs.«164481_j21354577396155_2_alg».proof.Proof.Gen.KernelIdeal.Value
import proofs.«164481_j21354577396155_2_alg».proof.Proof.GateBlock
import proofs.«164481_j21354577396155_2_alg».proof.Proof.FusedGate

noncomputable section

namespace Cert.KernelIdeal.Result

open Cert.KernelIdeal Cert.KernelIdeal.Gen Cert.KernelIdeal.Inputs
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The specification's new cell state of this core's arguments. -/
abbrev cellOf (c : Dev nD) : S8192x2048.Idx → EReal :=
  Cert.LstmCell.cell (argX m c) (argC m c) (argH m c) (argWx m c) (argWh m c) (argBx m c) (argBh m c)

/-- The specification's new hidden state of this core's arguments. -/
abbrev hiddenOf (c : Dev nD) : S8192x2048.Idx → EReal :=
  Cert.LstmCell.hidden (argX m c) (argC m c) (argH m c) (argWx m c) (argWh m c) (argBx m c) (argBh m c)

/-! ## The index maps over the grid -/

/-- Every input window's block index in terms of the result tile's `(bt, ht)`: the activations move with `bt` and
    take all features; the old cell state and both results share the tile; weights and bias move with `ht` and take
    all gates. Decided over the 128 points. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = win0_4.index t (1 : Fin 2)
    ∧ win0_2.index t (0 : Fin 3) = 0 ∧ win0_2.index t (1 : Fin 3) = win0_4.index t (1 : Fin 2) ∧ win0_2.index t (2 : Fin 3) = 0
    ∧ win0_3.index t (0 : Fin 2) = 0 ∧ win0_3.index t (1 : Fin 2) = win0_4.index t (1 : Fin 2)
    ∧ win0_5.index t (0 : Fin 2) = win0_4.index t (0 : Fin 2) ∧ win0_5.index t (1 : Fin 2) = win0_4.index t (1 : Fin 2)
    ∧ win0_4.index t (0 : Fin 2) ≤ 15 ∧ win0_4.index t (1 : Fin 2) ≤ 7 :=
  (by decide +kernel : ∀ t : Fin grid0.N, _)

/-- Every tile `(bt, ht)` is some point's. -/
theorem idx_onto : ∀ (q0 : Fin 16) (q1 : Fin 8), ∃ t : Fin cfg0.N, win0_4.index t = ![q0.val, q1.val] :=
  (by decide +kernel : ∀ (q0 : Fin 16) (q1 : Fin 8), ∃ t : Fin grid0.N, win0_4.index t = ![q0.val, q1.val])

/-! ## A point's blocks are tiles of the arrays -/

/-- A gate at cell `(p, q)` of point `t`'s blocks is the specification's gate at the entry `(B, J)` the cell sits at. -/
theorem gate_point (c : Dev nD) (t : Fin cfg0.N) (g : Fin 4) (p : Fin 512) (q : Fin 256) (B : Fin 8192) (J : Fin 2048)
    (hB : B.val = win0_4.index t (0 : Fin 2) * 512 + p.val) (hJ : J.val = win0_4.index t (1 : Fin 2) * 256 + q.val) :
    Block.gateSum (iblk m c 0 t) (iblk m c 2 t) (iblk m c 3 t) g p q = preOf m c g B J := by
  obtain ⟨e00, e01, e10, e11, e20, e21, e22, e30, e31, e50, e51, b0, b1⟩ := idx_facts t
  refine Eq.trans ?_ (fused_gate m c g B J)
  unfold Block.gateSum
  refine congrArg₂ (· + ·) (Finset.sum_congr rfl fun k _ => congrArg₂ (· * ·) ?_ ?_) ?_
  · show prepActs m c (((cfg0.win 0).blk t).view.emb (ix2 p k)) = prepActs m c (ix2 B k)
    refine congrArg (prepActs m c) (funext fun a => Fin.ext ?_)
    match a with
    | ⟨0, _⟩ => show win0_0.index t (0 : Fin 2) * 512 + 1 * p.val = B.val; omega
    | ⟨1, _⟩ => show win0_0.index t (1 : Fin 2) * 4096 + 1 * k.val = k.val; omega
  · show prepW m c (((cfg0.win 2).blk t).view.emb (ix3 g q k)) = prepW m c (ix3 g J k)
    refine congrArg (prepW m c) (funext fun a => Fin.ext ?_)
    match a with
    | ⟨0, _⟩ => show win0_2.index t (0 : Fin 3) * 4 + 1 * g.val = g.val; omega
    | ⟨1, _⟩ => show win0_2.index t (1 : Fin 3) * 256 + 1 * q.val = J.val; omega
    | ⟨2, _⟩ => show win0_2.index t (2 : Fin 3) * 4096 + 1 * k.val = k.val; omega
  · show prepB m c (((cfg0.win 3).blk t).view.emb (ix2 g q)) = prepB m c (ix2 g J)
    refine congrArg (prepB m c) (funext fun a => Fin.ext ?_)
    match a with
    | ⟨0, _⟩ => show win0_3.index t (0 : Fin 2) * 4 + 1 * g.val = g.val; omega
    | ⟨1, _⟩ => show win0_3.index t (1 : Fin 2) * 256 + 1 * q.val = J.val; omega

/-- The old cell state's block at point `t` is its `(bt, ht)` tile. -/
theorem cprev_point (c : Dev nD) (t : Fin cfg0.N) (p : Fin 512) (q : Fin 256) (i : S8192x2048.Idx)
    (h0 : (i 0).val = win0_4.index t (0 : Fin 2) * 512 + p.val) (h1 : (i 1).val = win0_4.index t (1 : Fin 2) * 256 + q.val) :
    (iblk m c 1 t : S512x256.Idx → EReal) (ix2 p q) = argC m c i := by
  obtain ⟨e00, e01, e10, e11, e20, e21, e22, e30, e31, e50, e51, b0, b1⟩ := idx_facts t
  show (V m c main_arg1 : S8192x2048.Idx → EReal) (((cfg0.win 1).blk t).view.emb (ix2 p q)) = argC m c i
  rw [V_main_arg1]
  refine congrArg (argC m c) (funext fun a => Fin.ext ?_)
  match a with
  | ⟨0, _⟩ => show win0_1.index t (0 : Fin 2) * 512 + 1 * p.val = (i 0).val; omega
  | ⟨1, _⟩ => show win0_1.index t (1 : Fin 2) * 256 + 1 * q.val = (i 1).val; omega

/-- What a step leaves at cell `(p, q)` of the new cell state's block is the specification's new cell state at the
    entry the cell sits at. -/
theorem cell_point (c : Dev nD) (t : Fin cfg0.N) (p : Fin 512) (q : Fin 256) (i : S8192x2048.Idx)
    (h0 : (i 0).val = win0_4.index t (0 : Fin 2) * 512 + p.val) (h1 : (i 1).val = win0_4.index t (1 : Fin 2) * 256 + q.val) :
    Block.cellBlock (iblk m c 0 t) (iblk m c 1 t) (iblk m c 2 t) (iblk m c 3 t) p q = cellOf m c i := by
  unfold Block.cellBlock
  rw [gate_point m c t 0 p q (i 0) (i 1) h0 h1, gate_point m c t 1 p q (i 0) (i 1) h0 h1,
    gate_point m c t 2 p q (i 0) (i 1) h0 h1, cprev_point m c t p q i h0 h1]
  rfl

/-! ## What a point writes back -/

/-- Point `t` writes back its tile of the specification's new cell state. -/
theorem flushed4_eq (c : Dev nD) (t : Fin cfg0.N) :
    (dats m 0 c).flushed 4 t = ((cfg0.win 4).blk t).view.read (Elt Ideal) (cellOf m c) := by
  rw [Value.flushed4]
  show (out0_4 (iblk m c 0 t) (iblk m c 1 t) (iblk m c 2 t) (iblk m c 3 t) : S512x256.Idx → EReal)
    = fun y : S512x256.Idx => cellOf m c (((cfg0.win 4).blk t).view.emb y)
  funext y
  obtain ⟨p, q, rfl⟩ : ∃ (p : Fin 512) (q : Fin 256), y = ix2 p q := ⟨y 0, y 1, eq_ix2 y⟩
  refine (Block.cell_block_at (iblk m c 0 t) (iblk m c 1 t) (iblk m c 2 t) (iblk m c 3 t) p q).trans ?_
  exact cell_point m c t p q _
    (by show win0_4.index t (0 : Fin 2) * 512 + 1 * p.val = win0_4.index t (0 : Fin 2) * 512 + p.val; omega)
    (by show win0_4.index t (1 : Fin 2) * 256 + 1 * q.val = win0_4.index t (1 : Fin 2) * 256 + q.val; omega)

/-- Point `t` writes back its tile of the specification's new hidden state. -/
theorem flushed5_eq (c : Dev nD) (t : Fin cfg0.N) :
    (dats m 0 c).flushed 5 t = ((cfg0.win 5).blk t).view.read (Elt Ideal) (hiddenOf m c) := by
  obtain ⟨e00, e01, e10, e11, e20, e21, e22, e30, e31, e50, e51, b0, b1⟩ := idx_facts t
  rw [Value.flushed5]
  show (out0_5 (iblk m c 0 t) (iblk m c 1 t) (iblk m c 2 t) (iblk m c 3 t) : S512x256.Idx → EReal)
    = fun y : S512x256.Idx => hiddenOf m c (((cfg0.win 5).blk t).view.emb y)
  funext y
  obtain ⟨p, q, rfl⟩ : ∃ (p : Fin 512) (q : Fin 256), y = ix2 p q := ⟨y 0, y 1, eq_ix2 y⟩
  refine (Block.hidden_block_at (iblk m c 0 t) (iblk m c 1 t) (iblk m c 2 t) (iblk m c 3 t) p q).trans ?_
  have h0 : ((((cfg0.win 5).blk t).view.emb (ix2 p q) : S8192x2048.Idx) 0).val = win0_4.index t (0 : Fin 2) * 512 + p.val := by
    show win0_5.index t (0 : Fin 2) * 512 + 1 * p.val = win0_4.index t (0 : Fin 2) * 512 + p.val; omega
  have h1 : ((((cfg0.win 5).blk t).view.emb (ix2 p q) : S8192x2048.Idx) 1).val = win0_4.index t (1 : Fin 2) * 256 + q.val := by
    show win0_5.index t (1 : Fin 2) * 256 + 1 * q.val = win0_4.index t (1 : Fin 2) * 256 + q.val; omega
  rw [gate_point m c t 3 p q _ _ h0 h1, cell_point m c t p q _ h0 h1]
  rfl

/-! ## The tiles cover the arrays -/

/-- An entry is in point `t`'s tile of the new cell state iff each coordinate is in the tile's range. -/
theorem mem_blk4 (t : Fin cfg0.N) (i : S8192x2048.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v7_0).slice (win0_4.rect t)).set ↔ _
  rw [View.set_slice_whole, Rect.mem_set_unit]
  exact Iff.rfl

/-- The same for the new hidden state. -/
theorem mem_blk5 (t : Fin cfg0.N) (i : S8192x2048.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v7_1).slice (win0_5.rect t)).set ↔ _
  rw [View.set_slice_whole, Rect.mem_set_unit]
  exact Iff.rfl

/-- Entry `(r, s)` of the new cell state lies in the tile `(r / 512, s / 256)`. -/
theorem cover4 (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_blk4]
  intro a
  match a with
  | ⟨0, _⟩ =>
    show win0_4.index t (0 : Fin 2) * 512 ≤ (i 0).val ∧ (i 0).val < win0_4.index t (0 : Fin 2) * 512 + 512; omega
  | ⟨1, _⟩ =>
    show win0_4.index t (1 : Fin 2) * 256 ≤ (i 1).val ∧ (i 1).val < win0_4.index t (1 : Fin 2) * 256 + 256; omega

/-- Entry `(r, s)` of the new hidden state lies in the tile `(r / 512, s / 256)`. -/
theorem cover5 (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  obtain ⟨e00, e01, e10, e11, e20, e21, e22, e30, e31, e50, e51, b0, b1⟩ := idx_facts t
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + 512; omega
  | ⟨1, _⟩ =>
    show win0_5.index t (1 : Fin 2) * 256 ≤ (i 1).val ∧ (i 1).val < win0_5.index t (1 : Fin 2) * 256 + 256; omega

/-! ## The arrays after the run -/

/-- The first result array after the run is the specification's new cell state. -/
theorem final4 (c : Dev nD) : (dats m 0 c).arrAt 4 cfg0.N = cellOf m c :=
  (dats m 0 c).arrAt_eq_of_cover 4 (cellOf m c) (fun t _ => flushed4_eq m c t) cover4

/-- The second result array after the run is the specification's new hidden state. -/
theorem final5 (c : Dev nD) : (dats m 0 c).arrAt 5 cfg0.N = hiddenOf m c :=
  (dats m 0 c).arrAt_eq_of_cover 5 (hiddenOf m c) (fun t _ => flushed5_eq m c t) cover5

/-- The kernel's run re-posted: both results at the specification's arrays of the arguments, the arguments unchanged. -/
theorem run : θ_run defs (onTc (τ := τ) (main (F := Ideal))) ⟨m, fun _ => 0, ρ⟩ fun r => ∀ c : Dev nD,
      r.2.mem ((c : Thread nD τ).loc main_v7_0) = cellOf m c
      ∧ r.2.mem ((c : Thread nD τ).loc main_v7_1) = hiddenOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final4 m c), (h c).2.1.trans (final5 m c), (h c).2.2⟩)
    (Value.run_blocks m ρ)

end Cert.KernelIdeal.Result

end
-- ==== Proof.RefResult.lean ====
/-
  The reference computes the specification.

  It forms all four gates at once as a [4, 8192, 2048] array — the input projection `W_x · x` transposed to
  gate × batch × hidden with `b_x` broadcast over the batch, plus the same for `W_h · h` and `b_h` — so its entry
  `(g, b, j)` is the specification's `pre g b j` term for term: each projection is a sum over the one contracted
  feature axis, the transpose swaps the batch and hidden coordinates, the two broadcasts read the bias at `(g, j)`.
  Gate `g` is then slice `g` reshaped to [8192, 2048] (row-major position kept, so entry `(b, j)` is `(g, b, j)`),
  the sigmoid is spelt `1 / (1 + exp (-z))` with the f32 word of one, which is the logistic function, and the two
  results are the specification's formulas over those.
-/
import proofs.«164481_j21354577396155_2_alg».proof.Proof.Gen.ReferenceIdeal.Read
import proofs.«164481_j21354577396155_2_alg».proof.Proof.LstmCell

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

variable (x0 x1 x2 : S8192x2048.Idx → EReal) (x3 x4 : S4x2048x2048.Idx → EReal) (x5 x6 : S4x2048.Idx → EReal)

/-- Entry `(g, b, j)` of the array of all four gates is the specification's pre-activation. -/
theorem gates_at (g : Fin 4) (b : Fin 8192) (j : Fin 2048) :
    val_main_v10 (F := Ideal) x0 x2 x3 x4 x5 x6 (ix3 g b j) = Cert.LstmCell.pre x0 x2 x3 x4 x5 x6 g b j := by
  have el0 : ∀ k : Fin 2048, lidx_main_v0 (idx_main_v1 (ix3 g b j)) k = ix3 g j k := fun k =>
    funext fun a => Fin.ext (by match a with | ⟨0, _⟩ => rfl | ⟨1, _⟩ => rfl | ⟨2, _⟩ => rfl)
  have er0 : ∀ k : Fin 2048, ridx_main_v0 (idx_main_v1 (ix3 g b j)) k = ix2 b k := fun k =>
    funext fun a => Fin.ext (by match a with | ⟨0, _⟩ => rfl | ⟨1, _⟩ => rfl)
  have el5 : ∀ k : Fin 2048, lidx_main_v5 (idx_main_v6 (ix3 g b j)) k = ix3 g j k := fun k =>
    funext fun a => Fin.ext (by match a with | ⟨0, _⟩ => rfl | ⟨1, _⟩ => rfl | ⟨2, _⟩ => rfl)
  have er5 : ∀ k : Fin 2048, ridx_main_v5 (idx_main_v6 (ix3 g b j)) k = ix2 b k := fun k =>
    funext fun a => Fin.ext (by match a with | ⟨0, _⟩ => rfl | ⟨1, _⟩ => rfl)
  have eb5 : idx_main_v2 (idx_main_v3 (ix3 g b j)) = ix2 g j :=
    funext fun a => Fin.ext (by match a with | ⟨0, _⟩ => rfl | ⟨1, _⟩ => rfl)
  have eb6 : idx_main_v7 (idx_main_v8 (ix3 g b j)) = ix2 g j :=
    funext fun a => Fin.ext (by match a with | ⟨0, _⟩ => rfl | ⟨1, _⟩ => rfl)
  rw [val_main_v10_apply, val_main_v4_apply, val_main_v9_apply, val_main_v1_apply, val_main_v0_apply,
    val_main_v3_apply, val_main_v2_apply, val_main_v6_apply, val_main_v5_apply, val_main_v8_apply, val_main_v7_apply]
  simp only [el0, er0, el5, er5, eb5, eb6, Ideal.addf_def]
  rfl

/-- Slice `g` of the gates array, reshaped to [8192, 2048], at `i`: the gates array at `(g, i 0, i 1)`. -/
theorem slice0_idx (i : S8192x2048.Idx) : idx_main_v11 (idx_main_v12 i) = ix3 (0 : Fin 4) (i 0) (i 1) := by
  have h0 : (i 0).val < 8192 := (i 0).isLt
  have h1 : (i 1).val < 2048 := (i 1).isLt
  funext a; apply Fin.ext
  match a with
  | ⟨0, _⟩ => rfl
  | ⟨1, _⟩ => show ((i 0).val * 2048 + (i 1).val) / 2048 % 8192 = (i 0).val; omega
  | ⟨2, _⟩ => show ((i 0).val * 2048 + (i 1).val) % 2048 = (i 1).val; omega

theorem slice1_idx (i : S8192x2048.Idx) : idx_main_v19 (idx_main_v20 i) = ix3 (1 : Fin 4) (i 0) (i 1) := by
  have h0 : (i 0).val < 8192 := (i 0).isLt
  have h1 : (i 1).val < 2048 := (i 1).isLt
  funext a; apply Fin.ext
  match a with
  | ⟨0, _⟩ => rfl
  | ⟨1, _⟩ => show ((i 0).val * 2048 + (i 1).val) / 2048 % 8192 = (i 0).val; omega
  | ⟨2, _⟩ => show ((i 0).val * 2048 + (i 1).val) % 2048 = (i 1).val; omega

theorem slice2_idx (i : S8192x2048.Idx) : idx_main_v27 (idx_main_v28 i) = ix3 (2 : Fin 4) (i 0) (i 1) := by
  have h0 : (i 0).val < 8192 := (i 0).isLt
  have h1 : (i 1).val < 2048 := (i 1).isLt
  funext a; apply Fin.ext
  match a with
  | ⟨0, _⟩ => rfl
  | ⟨1, _⟩ => show ((i 0).val * 2048 + (i 1).val) / 2048 % 8192 = (i 0).val; omega
  | ⟨2, _⟩ => show ((i 0).val * 2048 + (i 1).val) % 2048 = (i 1).val; omega

theorem slice3_idx (i : S8192x2048.Idx) : idx_main_v30 (idx_main_v31 i) = ix3 (3 : Fin 4) (i 0) (i 1) := by
  have h0 : (i 0).val < 8192 := (i 0).isLt
  have h1 : (i 1).val < 2048 := (i 1).isLt
  funext a; apply Fin.ext
  match a with
  | ⟨0, _⟩ => rfl
  | ⟨1, _⟩ => show ((i 0).val * 2048 + (i 1).val) / 2048 % 8192 = (i 0).val; omega
  | ⟨2, _⟩ => show ((i 0).val * 2048 + (i 1).val) % 2048 = (i 1).val; omega

/-- The forget gate's pre-activation, as the reference slices it out. -/
theorem gate0_at (i : S8192x2048.Idx) :
    val_main_v12 (F := Ideal) x0 x2 x3 x4 x5 x6 i = Cert.LstmCell.pre x0 x2 x3 x4 x5 x6 0 (i 0) (i 1) := by
  rw [val_main_v12_apply, val_main_v11_apply, slice0_idx]
  exact gates_at x0 x2 x3 x4 x5 x6 0 (i 0) (i 1)

/-- The input gate's. -/
theorem gate1_at (i : S8192x2048.Idx) :
    val_main_v20 (F := Ideal) x0 x2 x3 x4 x5 x6 i = Cert.LstmCell.pre x0 x2 x3 x4 x5 x6 1 (i 0) (i 1) := by
  rw [val_main_v20_apply, val_main_v19_apply, slice1_idx]
  exact gates_at x0 x2 x3 x4 x5 x6 1 (i 0) (i 1)

/-- The candidate's. -/
theorem gate2_at (i : S8192x2048.Idx) :
    val_main_v28 (F := Ideal) x0 x2 x3 x4 x5 x6 i = Cert.LstmCell.pre x0 x2 x3 x4 x5 x6 2 (i 0) (i 1) := by
  rw [val_main_v28_apply, val_main_v27_apply, slice2_idx]
  exact gates_at x0 x2 x3 x4 x5 x6 2 (i 0) (i 1)

/-- The output gate's. -/
theorem gate3_at (i : S8192x2048.Idx) :
    val_main_v31 (F := Ideal) x0 x2 x3 x4 x5 x6 i = Cert.LstmCell.pre x0 x2 x3 x4 x5 x6 3 (i 0) (i 1) := by
  rw [val_main_v31_apply, val_main_v30_apply, slice3_idx]
  exact gates_at x0 x2 x3 x4 x5 x6 3 (i 0) (i 1)

/-- The forget gate: one over one plus the exponential of the negated pre-activation is its logistic. -/
theorem sig0_at (i : S8192x2048.Idx) :
    val_main_v18 (F := Ideal) x0 x2 x3 x4 x5 x6 i = Ideal.logistic (Cert.LstmCell.pre x0 x2 x3 x4 x5 x6 0 (i 0) (i 1)) := by
  rw [val_main_v18_apply, val_main_v17_apply, val_main_cst_0_apply, val_main_v16_apply, val_main_v15_apply,
    val_main_cst_apply, val_main_v14_apply, val_main_v13_apply, gate0_at]
  exact Cert.LstmCell.sigmoid_expanded _

/-- The input gate. -/
theorem sig1_at (i : S8192x2048.Idx) :
    val_main_v26 (F := Ideal) x0 x2 x3 x4 x5 x6 i = Ideal.logistic (Cert.LstmCell.pre x0 x2 x3 x4 x5 x6 1 (i 0) (i 1)) := by
  rw [val_main_v26_apply, val_main_v25_apply, val_main_cst_2_apply, val_main_v24_apply, val_main_v23_apply,
    val_main_cst_1_apply, val_main_v22_apply, val_main_v21_apply, gate1_at]
  exact Cert.LstmCell.sigmoid_expanded _

/-- The output gate. -/
theorem sig3_at (i : S8192x2048.Idx) :
    val_main_v37 (F := Ideal) x0 x2 x3 x4 x5 x6 i = Ideal.logistic (Cert.LstmCell.pre x0 x2 x3 x4 x5 x6 3 (i 0) (i 1)) := by
  rw [val_main_v37_apply, val_main_v36_apply, val_main_cst_4_apply, val_main_v35_apply, val_main_v34_apply,
    val_main_cst_3_apply, val_main_v33_apply, val_main_v32_apply, gate3_at]
  exact Cert.LstmCell.sigmoid_expanded _

/-- The candidate: tanh of its pre-activation. -/
theorem cand_at (i : S8192x2048.Idx) :
    val_main_v29 (F := Ideal) x0 x2 x3 x4 x5 x6 i = Ideal.tanh (Cert.LstmCell.pre x0 x2 x3 x4 x5 x6 2 (i 0) (i 1)) := by
  rw [val_main_v29_apply, gate2_at]
  rfl

/-- The reference's first result is the specification's new cell state. -/
theorem cell_eq : val_main_v40 (F := Ideal) x0 x1 x2 x3 x4 x5 x6 = Cert.LstmCell.cell x0 x1 x2 x3 x4 x5 x6 := by
  funext i
  rw [val_main_v40_apply, val_main_v38_apply, val_main_v39_apply, sig0_at, sig1_at, cand_at]
  rfl

/-- The reference's second result is the specification's new hidden state. -/
theorem hidden_eq : val_main_v42 (F := Ideal) x0 x1 x2 x3 x4 x5 x6 = Cert.LstmCell.hidden x0 x1 x2 x3 x4 x5 x6 := by
  funext i
  rw [val_main_v42_apply, val_main_v41_apply, sig3_at, cell_eq]
  rfl

end Cert.ReferenceIdeal.RefValue

end
-- ==== Proof.lean ====
/-
  A fused LSTM cell step against its two-projection reference, equal on the extended reals.

  Both programs take inputs `x` [8192, 2048], old cell state `c`, old hidden state `h`, weights `W_x`, `W_h`
  [4, 2048, 2048] and biases `b_x`, `b_h` [4, 2048], and return the new cell state and the new hidden state. With
      pre g b j = (Σ_k W_x[g,j,k] · x[b,k] + b_x[g,j]) + (Σ_k W_h[g,j,k] · h[b,k] + b_h[g,j])
  these are  c' = σ(pre 0) · c + σ(pre 1) · tanh(pre 2)  and  h' = σ(pre 3) · tanh(c')  (Proof/LstmCell.lean).

  The reference computes exactly these terms (Proof/RefResult.lean). The kernel lays `x` and `h` side by side, lays
  `W_x` and `W_h` side by side, adds the biases first, and for each of 8 × 16 tiles contracts one axis of 4096 features;
  the changes of float format on the way are the identity on the extended reals. A sum over 4096 terms is the sum of
  its halves, products commute and additions regroup, so each gate agrees (Proof/FusedGate.lean) with no appeal to
  finiteness of the inputs; the sigmoid the reference spells `1 / (1 + exp (-z))` is the kernel's logistic, and tanh is
  one function on both sides. The tiles cover the result arrays (Proof/KernelResult.lean).

  The three programs' runs terminate without fault and leave the arguments unchanged; the idealized kernel is the
  kernel's own text read on the extended reals, nothing rewritten.
-/
import proofs.«164481_j21354577396155_2_alg».proof.Defs
import proofs.«164481_j21354577396155_2_alg».proof.Proof.Gen.Kernel
import proofs.«164481_j21354577396155_2_alg».proof.Proof.Gen.Kernel.Skeleton
import proofs.«164481_j21354577396155_2_alg».proof.Proof.Gen.Kernel.Launch
import proofs.«164481_j21354577396155_2_alg».proof.Proof.Gen.Kernel.Points
import proofs.«164481_j21354577396155_2_alg».proof.Proof.Gen.Kernel.Frame
import proofs.«164481_j21354577396155_2_alg».proof.Proof.Gen.KernelIdeal
import proofs.«164481_j21354577396155_2_alg».proof.Proof.Gen.KernelIdeal.Skeleton
import proofs.«164481_j21354577396155_2_alg».proof.Proof.Gen.KernelIdeal.Launch
import proofs.«164481_j21354577396155_2_alg».proof.Proof.Gen.KernelIdeal.Points
import proofs.«164481_j21354577396155_2_alg».proof.Proof.Gen.KernelIdeal.Frame
import proofs.«164481_j21354577396155_2_alg».proof.Proof.Gen.ReferenceIdeal
import proofs.«164481_j21354577396155_2_alg».proof.Proof.Gen.Pre_finite_inputs
import proofs.«164481_j21354577396155_2_alg».proof.Proof.Gen.KernelIdeal.Value
import proofs.«164481_j21354577396155_2_alg».proof.Proof.Gen.ReferenceIdeal.Run
import proofs.«164481_j21354577396155_2_alg».proof.Proof.Gen.ReferenceIdeal.Read
import proofs.«164481_j21354577396155_2_alg».proof.Proof.KernelResult
import proofs.«164481_j21354577396155_2_alg».proof.Proof.RefResult
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Nothing was rewritten between the kernel and its reading on the extended reals. -/
theorem preserves : Cert.preserves_Kernel_KernelIdeal := trivial

/-- Both programs end with the new cell state and the new hidden state of arguments that agree. -/
theorem algebraic : Cert.algebraic_KernelIdeal_ReferenceIdeal := by
  intro m ρ m' ρ' _ hagree
  refine ⟨fun c => Cert.KernelIdeal.Result.cellOf m c, fun c => Cert.KernelIdeal.Result.hiddenOf m c,
    Cert.KernelIdeal.Result.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · show _ = Cert.KernelIdeal.Result.cellOf m c
    rw [Cert.ReferenceIdeal.Read.val_main_v40_eq, Cert.ReferenceIdeal.RefValue.cell_eq,
      (hagree c).1, (hagree c).2.1, (hagree c).2.2.1, (hagree c).2.2.2.1, (hagree c).2.2.2.2.1,
      (hagree c).2.2.2.2.2.1, (hagree c).2.2.2.2.2.2]
  · show _ = Cert.KernelIdeal.Result.hiddenOf m c
    rw [Cert.ReferenceIdeal.Read.val_main_v42_eq, Cert.ReferenceIdeal.RefValue.hidden_eq,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
